-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384 : Shape := ⟨1, ![16384]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : IVec S16384 32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  main_v3
-- ==== Kernel.lean ====
abbrev S16384x2 : Shape := ⟨2, ![16384, 2]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S8x1x128 : Shape := ⟨3, ![8, 1, 128]⟩
abbrev S2048x1 : Shape := ⟨2, ![2048, 1]⟩
abbrev S1x1024 : Shape := ⟨2, ![1, 1024]⟩
abbrev S1x1x128 : Shape := ⟨3, ![1, 1, 128]⟩
abbrev S2048x1024 : Shape := ⟨2, ![2048, 1024]⟩
abbrev S2048 : Shape := ⟨1, ![2048]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 51
  | .vmem => 7
  | .smem => 0
  | _ => 0

abbrev bufTy : (tb : Table) → Fin (tcTables nBuf tb) → BufTy
  | .hbm, ⟨0, _⟩ => ⟨S16384x2, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x2, .f32⟩
  | .hbm, ⟨9, _⟩ => ⟨S16384x2, .f32⟩
  | .hbm, ⟨10, _⟩ => ⟨S16384x2, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x2, .f32⟩
  | .hbm, ⟨15, _⟩ => ⟨S16384x2, .f32⟩
  | .hbm, ⟨16, _⟩ => ⟨S16384x1, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S1x16384, .f32⟩
  | .hbm, ⟨37, _⟩ => ⟨S8x1x128, .f32⟩
  | .hbm, ⟨38, _⟩ => ⟨S8x1x1, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S2048x1, .f32⟩
  | .local _ .vmem, ⟨1, _⟩ => ⟨S2048x1, .f32⟩
  | .local _ .vmem, ⟨2, _⟩ => ⟨S1x1024, .f32⟩
  | .local _ .vmem, ⟨3, _⟩ => ⟨S1x1024, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  slices_S16384x2_S16384x1_0_1 : S16384x2.Slices ![0, 1] S16384x1
  shapeCasts_S16384x1_S16384 : S16384x1.ShapeCasts S16384
  shapeCasts_S16384_S16384x1 : S16384.ShapeCasts S16384x1
  shapeCasts_S16384_S1x16384 : S16384.ShapeCasts S1x16384
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  broadcasts_S2048x1_S2048x1024 : S2048x1.Broadcasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  reducesTo_S16384_S_d0 : S16384.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .f32 = 32 ∨ (Rect.block (s := S16384x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_v21) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2 : Shape := ⟨2, ![16384, 2]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 50
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x2, .f32⟩
  | .hbm, ⟨9, _⟩ => ⟨S16384x2, .f32⟩
  | .hbm, ⟨10, _⟩ => ⟨S16384x2, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x2, .f32⟩
  | .hbm, ⟨15, _⟩ => ⟨S16384x2, .f32⟩
  | .hbm, ⟨16, _⟩ => ⟨S16384x1, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S16384, .f32⟩
  | .hbm, ⟨26, _⟩ => ⟨S1x16384, .f32⟩
  | .hbm, ⟨27, _⟩ => ⟨S16384x1, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S_, .f32⟩
  | .hbm, ⟨32, _⟩ => ⟨S16384x16384, .f32⟩
  | .hbm, ⟨33, _⟩ => ⟨S16384x16384, .f32⟩
  | .hbm, ⟨34, _⟩ => ⟨S_, .f32⟩
  | .hbm, ⟨35, _⟩ => ⟨S16384x16384, .f32⟩
  | .hbm, ⟨36, _⟩ => ⟨S16384x16384, .f32⟩
  | .hbm, ⟨37, _⟩ => ⟨S16384x1, .f32⟩
  | .hbm, ⟨38, _⟩ => ⟨S1x16384, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  slices_S16384x2_S16384x1_0_1 : S16384x2.Slices ![0, 1] S16384x1
  shapeCasts_S16384x1_S16384 : S16384x1.ShapeCasts S16384
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  reducesTo_S16384_S_d0 : S16384.ReducesTo [0] S_

variable [Facts₀]

class Facts : Prop extends Facts₀ where

variable [Facts]
-- ==== Proof.KPieces.lean ====
/-
  What one run of the kernel body leaves in the accumulator and in the output block, in each of its three cases.

  The body adds the tile's sum into a one-row accumulator.  At the first column block of a row block it first stores
  zeros there, so it leaves `zeros + tile`; at every other column block it leaves `previous + tile`; and at the last
  column block it also copies the accumulator, as it then stands, into the output block.  Each statement below says
  that what the found stores leave, read back as one array, is that one payload of the loaded blocks.
-/
import proofs.«117087_j80530636800492_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem sout_B (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1x128 .f32) (h4 : a4.IsWhole)
    (a5 : Memref sig .tc .vmem S1x1x128 .f32) (h5 : a5.IsWhole) (hc0 : ¬cond0_0 i) (hc1 : ¬cond0_1 i)
    (x0 : Vec F S2048x1 .f32) (x1 : Vec F S1x1024 .f32) (xs0 : Vec F S1x1x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz3]
  simp only [View.readAt_eq_ld, h2.read_unread, h3.read_unread, h5.read_unread, View.ld_unit_zero (S := S2048x1) hz2,
    View.ld_unit_zero (S := S1x1024) hz2, View.ld_unit_zero (S := S1x1x128) hz3]

theorem sout_C (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1x128 .f32) (h4 : a4.IsWhole)
    (a5 : Memref sig .tc .vmem S1x1x128 .f32) (h5 : a5.IsWhole) (hc0 : ¬cond0_0 i) (hc1 : cond0_1 i)
    (x0 : Vec F S2048x1 .f32) (x1 : Vec F S1x1024 .f32) (xs0 : Vec F S1x1x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S2048x1) hz2,
    View.ld_unit_zero (S := S1x1024) hz2, View.ld_unit_zero (S := S1x1x128) hz3]

theorem out_C (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1x128 .f32) (h4 : a4.IsWhole)
    (a5 : Memref sig .tc .vmem S1x1x128 .f32) (h5 : a5.IsWhole) (hc0 : ¬cond0_0 i) (hc1 : cond0_1 i)
    (x0 : Vec F S2048x1 .f32) (x1 : Vec F S1x1024 .f32) (xs0 : Vec F S1x1x128 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1x128) _ hz3]
  simp only [View.readAt_eq_ld, h2.read_unread, h3.read_unread, h5.read_unread, View.ld_unit_zero (S := S2048x1) hz2,
    View.ld_unit_zero (S := S1x1024) hz2, View.ld_unit_zero (S := S1x1x128) hz3]

theorem sout_A (c : Dev nD) (i : grid0.Coords) (a2 : Memref sig .tc .vmem S2048x1 .f32) (h2 : a2.IsWhole)
    (a3 : Memref sig .tc .vmem S1x1024 .f32) (h3 : a3.IsWhole) (a4 : Memref sig .tc .vmem S1x1x128 .f32) (h4 : a4.IsWhole)
    (a5 : Memref sig .tc .vmem S1x1x128 .f32) (h5 : a5.IsWhole) (hc0 : cond0_0 i) (hc1 : ¬cond0_1 i)
    (x0 : Vec F S2048x1 .f32) (x1 : Vec F S1x1024 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h5.read_unread, View.ld_unit_zero (S := S2048x1) hz2,
    View.ld_unit_zero (S := S1x1024) hz2, View.ld_unit_zero (S := S1x1x128) hz3]

end Cert.KernelIdeal.Region
end
-- ==== Proof.KPayload.lean ====
/-
  The body's arithmetic read at a lane, over the extended reals.

  With `x0` a column of 2048 entries, `x1` a row of 1024 entries and `acc` the accumulator row of 128 lanes, the payload
  at lane `l` is `acc l + ∑ r, ∑ c, max (x1 c - x0 r) 0`: the row is repeated down the rows and the column across the
  columns, the difference is clamped at zero, each row of the tile is summed along its lanes, the 2048 row sums are
  summed, and the one number is repeated over the 128 lanes and added.
-/
import proofs.«117087_j80530636800492_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Region

open Cert.KernelIdeal Cert.KernelIdeal.Gen

theorem pay1_apply (y : S1x1x128.Idx) : k0_pay1 (F := Ideal) y = Ideal.ofBits .f32 0x00000000#32 := by
  unfold k0_pay1
  rw [shapeCast_self]
  rfl

/-- One entry of the clamped difference tile. -/
theorem diff_apply (x0 : S2048x1.Idx → EReal) (x1 : S1x1024.Idx → EReal) (z : EReal) (h1 : S1x1024.ShapeCasts S1x1024)
    (h0 : S2048x1.ShapeCasts S2048x1) (b1 : S1x1024.Broadcasts S2048x1024) (b0 : S2048x1.Broadcasts S2048x1024)
    (r : Fin 2048) (cc : Fin 1024) :
    (maximumf (F := Ideal) (φ := .f32) (subf (F := Ideal) (φ := .f32) (broadcastTo S2048x1024 (shapeCast S1x1024 x1 h1) b1) (broadcastTo S2048x1024 (shapeCast S2048x1 x0 h0) b0))
      (broadcast S2048x1024 z)) (ix2 r cc) = max (x1 (ix2 0 cc) - x0 (ix2 r 0)) z := by
  rw [shapeCast_self, shapeCast_self]
  show max (broadcastTo S2048x1024 x1 b1 (ix2 r cc) - broadcastTo S2048x1024 x0 b0 (ix2 r cc)) z = _
  rw [broadcastTo_apply x1 b1 (ix2 r cc) (ix2 0 cc) (fun a => by match a with | ⟨0, _⟩ => rfl | ⟨1, _⟩ => rfl),
    broadcastTo_apply x0 b0 (ix2 r cc) (ix2 r 0) (fun a => by match a with | ⟨0, _⟩ => rfl | ⟨1, _⟩ => rfl)]

theorem rowSum_apply (v : FVec Ideal S2048x1024 .f32) (h : S2048x1024.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ cc : Fin 1024, v (ix2 r cc) := by
  refine (Ideal.multiReduction_add_single v _ h hφ hacc (ix1 r)).trans ?_
  refine Finset.sum_congr rfl fun cc _ => congrArg v ?_
  funext a
  apply Fin.ext
  match a with
  | ⟨0, _⟩ => rfl
  | ⟨1, _⟩ => rfl

theorem colSum_apply (u : FVec Ideal S2048x1 .f32) (h : S2048x1.Reduces [0] S1) (hφ : FKind.Formats .f32)
    (hacc : (0x00000000#32 : BitVec 32) = FKind.add.neutral .f32 hφ) :
    multiReduction .add [0] S1 u 0x00000000#32 h hφ hacc (ix1 0) = ∑ r : Fin 2048, u (ix2 r 0) := by
  refine (Ideal.multiReduction_add_single u _ h hφ hacc (ix1 0)).trans ?_
  refine Finset.sum_congr rfl fun r _ => congrArg u ?_
  funext a
  apply Fin.ext
  match a with
  | ⟨0, _⟩ => rfl
  | ⟨1, _⟩ => rfl

theorem colCast_apply (w : S2048.Idx → EReal) (h : S2048.ShapeCasts S2048x1) (r : Fin 2048) :
    shapeCast S2048x1 w h (ix2 r 0) = w (ix1 r) :=
  shapeCast_apply w h (ix2 r 0) (ix1 r) (by
    rw [Shape.rowMajor_val_two, Shape.rowMajor_val_one]; show r.val = r.val * 1 + 0; omega)

theorem cast11_apply (w : S1.Idx → EReal) (h : S1.ShapeCasts S1x1) : shapeCast S1x1 w h (ix2 0 0) = w (ix1 0) :=
  shapeCast_apply w h (ix2 0 0) (ix1 0) (by rw [Shape.rowMajor_val_two, Shape.rowMajor_val_one]; rfl)

theorem cast111_apply (w : S1x1.Idx → EReal) (h : S1x1.ShapeCasts S1x1x1) : shapeCast S1x1x1 w h (ix3 0 0 0) = w (ix2 0 0) :=
  shapeCast_apply w h (ix3 0 0 0) (ix2 0 0) (by rw [Shape.rowMajor_val_two, Shape.rowMajor_val_three]; rfl)

theorem lanes_apply (w : S1x1x1.Idx → EReal) (h : S1x1x1.Broadcasts S1x1x128) (l : Fin 128) :
    broadcastTo S1x1x128 w h (ix3 0 0 l) = w (ix3 0 0 0) :=
  broadcastTo_apply w h (ix3 0 0 l) (ix3 0 0 0) (fun a => by match a with | ⟨0, _⟩ => rfl | ⟨1, _⟩ => rfl | ⟨2, _⟩ => rfl)

/-- The accumulating payload at lane `l`: the accumulator's lane plus the tile's sum, rows outside, columns inside. -/
theorem pay2_apply (x0 : Vec Ideal S2048x1 .f32) (x1 : Vec Ideal S1x1024 .f32) (acc : Vec Ideal S1x1x128 .f32) (l : Fin 128) :
    k0_pay2 x0 x1 acc (ix3 0 0 l) = acc (ix3 0 0 l)
      + ∑ r : Fin 2048, ∑ cc : Fin 1024, max (x1 (ix2 0 cc) - x0 (ix2 r 0)) (Ideal.ofBits .f32 0x00000000#32) := by
  unfold k0_pay2
  dsimp only
  rw [shapeCast_self]
  refine congrArg (acc (ix3 0 0 l) + ·) ?_
  refine (lanes_apply _ _ l).trans ?_
  refine (cast111_apply _ _).trans ?_
  refine (cast11_apply _ _).trans ?_
  refine (colSum_apply _ _ _ _).trans ?_
  refine Finset.sum_congr rfl fun r _ => ?_
  refine (colCast_apply _ _ r).trans ?_
  refine (rowSum_apply _ _ _ _ r).trans ?_
  exact Finset.sum_congr rfl fun cc _ => diff_apply x0 x1 _ _ _ _ _ r cc

end Cert.KernelIdeal.Region
end
-- ==== Proof.Spec.lean ====
/-
  The mathematics both programs compute, over plain index types.

  With `p : Fin 16384 → EReal` a vector of probabilities and two one-bit label tests `c1` ("the label is 1": a positive)
  and `c0` ("the label is 0": a negative), the loss's numerator is the sum over all pairs (i, j) of
  `max ((p j - p i) + δ) 0` weighted by `[c1 i] · [c0 j]`.  The kernel folds the weights and δ into two masked vectors,
  `posV i = p i` where `c1 i` holds and a large constant `B` elsewhere, `negV j = p j + δ` where `c0 j` holds and `-B`
  elsewhere, and sums `max (negV j - posV i) 0`: a masked pair is pushed far below zero, so the maximum is 0 there.  That
  step needs every `p i` to be a real number of bounded size, which a softmax of finite numbers is (it lies in [0, 1]).
  The kernel also sums tile by tile: 8 row blocks of 2048 by 16 column blocks of 1024.
-/
import Idealize.ShloMosaic.PureOps.Ideal
import Idealize.ShloMosaic.Lib.ValueIdx

noncomputable section

namespace Cert.PairSum

open Idealize.ShloMosaic

/-- The large constant 10⁶ that masks a non-positive row, -/
abbrev big : EReal := Ideal.ofBits .f32 0x49742400#32
/-- its negative, which masks a non-negative column, -/
abbrev nbig : EReal := Ideal.ofBits .f32 0xC9742400#32
/-- the margin δ (the f32 nearest 0.01), -/
abbrev delta : EReal := Ideal.ofBits .f32 0x3C23D70A#32
/-- the zero both programs start their sums from and clamp against, -/
abbrev zero : EReal := Ideal.ofBits .f32 0x00000000#32
/-- and the 1 the count of positives is clamped to from below. -/
abbrev one : EReal := Ideal.ofBits .f32 0x3F800000#32

/-- Every entry is a real number in [0, 1]. -/
def IsProb (p : Fin 16384 → EReal) : Prop := ∀ i, ∃ r : ℝ, p i = (r : EReal) ∧ 0 ≤ r ∧ r ≤ 1

/-- The positives' vector: `p i` where the test holds, the large constant elsewhere. -/
def posV (c1 : Fin 16384 → BitVec 1) (p : Fin 16384 → EReal) (i : Fin 16384) : EReal :=
  Scalar.select (c1 i) (p i) big

/-- The negatives' vector: `p j + δ` where the test holds, minus the large constant elsewhere. -/
def negV (c0 : Fin 16384 → BitVec 1) (p : Fin 16384 → EReal) (j : Fin 16384) : EReal :=
  Scalar.select (c0 j) (p j + delta) nbig

/-- One pair's term as the kernel computes it, from the two masked vectors. -/
def pairK (c1 c0 : Fin 16384 → BitVec 1) (p : Fin 16384 → EReal) (i j : Fin 16384) : EReal :=
  max (negV c0 p j - posV c1 p i) zero

/-- One pair's term as the reference computes it: the clamped difference times the two indicator weights. -/
def pairR (c1 c0 : Fin 16384 → BitVec 1) (p : Fin 16384 → EReal) (i j : Fin 16384) : EReal :=
  max ((p j - p i) + delta) zero * ((((c1 i).toNat : ℝ) : EReal) * (((c0 j).toNat : ℝ) : EReal))

/-- Row `r` of row block `b` (blocks of 2048 rows). -/
def rowIdx (b : Fin 8) (r : Fin 2048) : Fin 16384 := ⟨2048 * b.val + r.val, by omega⟩
/-- Column `c` of column block `k` (blocks of 1024 columns). -/
def colIdx (k : Fin 16) (c : Fin 1024) : Fin 16384 := ⟨1024 * k.val + c.val, by omega⟩

/-- The sum of a pair function over one 2048 × 1024 tile: rows first, each row's columns summed inside. -/
def tile (f : Fin 16384 → Fin 16384 → EReal) (b : Fin 8) (k : Fin 16) : EReal :=
  ∑ r : Fin 2048, ∑ c : Fin 1024, f (rowIdx b r) (colIdx k c)

/-- The loss from a numerator `tot` (the pairs' sum) and the positives' test: the numerator, summed from zero, over the
    count of positives, summed from zero and clamped to at least one. -/
def loss (tot : EReal) (c1 : Fin 16384 → BitVec 1) : EReal :=
  Ideal.div (zero + tot) (max (zero + ∑ i : Fin 16384, (((c1 i).toNat : ℝ) : EReal)) one)

/-- The test "the label is the word `w`", entry by entry, over a label vector indexed as the programs index it. -/
def labelIs (w : BitVec 32) (lab : (⟨1, ![16384]⟩ : Shape).Idx → BitVec 32) (i : Fin 16384) : BitVec 1 :=
  IntOp.cmpi .eq (lab (ValueIdx.ix1 i)) w

end Cert.PairSum

end
-- ==== Proof.KRegion.lean ====
/-
  The kernel's result array: entry (b, 0, l) is the sum of the 16 tile sums of row block b.

  The grid runs over 8 row blocks by 16 column blocks, the column block moving fastest, so point t is row block t / 16
  and column block t % 16.  The accumulator is reset at column block 0 and grows by one tile's sum per point; by
  induction on the point it holds, after point t, the sum of the tile sums of the column blocks 0 … t % 16 of row block
  t / 16.  At column block 15 the accumulator is copied to the output block, which is then written back as block
  t / 16 of the result array; the eight written blocks cover it.  A point's input blocks are rows
  2048·(t / 16) … of the column vector and columns 1024·(t % 16) … of the row vector as the region finds them.
-/
import proofs.«117087_j80530636800492_2_alg».proof.Proof.KPieces
import proofs.«117087_j80530636800492_2_alg».proof.Proof.KPayload
import proofs.«117087_j80530636800492_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PairSum

variable (m : (ℓ : Loc nD τ sig) → Buf (Elt Ideal) ℓ)

/-- Point `t`'s block of the column vector, -/
abbrev blk0 (c : Dev nD) (t : Fin cfg0.N) : S2048x1.Idx → EReal := iblk m c 0 t
/-- and its block of the row vector. -/
abbrev blk1 (c : Dev nD) (t : Fin cfg0.N) : S1x1024.Idx → EReal := iblk m c 1 t

/-- The tile sum of point `t`, over the point's two input blocks. -/
def tileAt (c : Dev nD) (t : Fin cfg0.N) : EReal :=
  ∑ r : Fin 2048, ∑ cc : Fin 1024, max (blk1 m c t (ix2 0 cc) - blk0 m c t (ix2 r 0)) zero

/-- The same by the point's number (zero past the grid, which nothing reads). -/
def tileN (c : Dev nD) (n : ℕ) : EReal := if h : n < cfg0.N then tileAt m c ⟨n, h⟩ else 0

theorem tileN_eq (c : Dev nD) (n : ℕ) (h : n < cfg0.N) : tileN m c n = tileAt m c ⟨n, h⟩ := dif_pos h

/-- The second component of a pair that equals a named pair, -/
theorem snd_of_eq {α β : Type} {p : α × β} {a : α} {b : β} (h : p = (a, b)) : p.2 = b := by subst h; rfl
/-- and the first. -/
theorem fst_of_eq {α β : Type} {p : α × β} {a : α} {b : β} (h : p = (a, b)) : p.1 = a := by subst h; rfl

/-- Adding to the zero word's value changes nothing. -/
theorem zword_add (a : EReal) : Ideal.ofBits .f32 0x00000000#32 + a = a := by rw [Ideal.ofBits_zero_f32, zero_add]

/-- At the first column block of a row block the accumulator ends at that tile's sum. -/
theorem scratch_first (c : Dev nD) (t : Fin cfg0.N) (h0 : t.val % 16 = 0) (h1 : ¬t.val % 16 = 15) (l : Fin 128) :
    (outsAt0 m c t.val t.isLt).2 (ix3 0 0 l) = tileAt m c t := by
  have e := snd_of_eq (outsAt0_A m c t h0 h1)
  refine (congrFun e (ix3 0 0 l)).trans ?_
  refine (congrFun (sout_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)) (ix3 0 0 l)).trans ?_
  refine (pay2_apply (iblk m c 0 t) (iblk m c 1 t) (k0_pay1 (F := Ideal)) l).trans ?_
  rw [pay1_apply]
  exact zword_add _

/-- At a later column block it grows by that tile's sum. -/
theorem scratch_next (c : Dev nD) (t : Fin cfg0.N) (h0 : ¬t.val % 16 = 0) (l : Fin 128) :
    (outsAt0 m c t.val t.isLt).2 (ix3 0 0 l)
      = (outsAt0 m c (t.val - 1) (Nat.lt_of_le_of_lt (Nat.sub_le _ _) t.isLt)).2 (ix3 0 0 l) + tileAt m c t := by
  by_cases h1 : t.val % 16 = 15
  · have e := snd_of_eq (outsAt0_C m c t h0 h1)
    refine (congrFun e (ix3 0 0 l)).trans ?_
    refine (congrFun (sout_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) (outsAt0 m c (t.val - 1) (Nat.lt_of_le_of_lt (Nat.sub_le _ _) t.isLt)).2) (ix3 0 0 l)).trans ?_
    exact pay2_apply (iblk m c 0 t) (iblk m c 1 t) (outsAt0 m c (t.val - 1) (Nat.lt_of_le_of_lt (Nat.sub_le _ _) t.isLt)).2 l
  · have e := snd_of_eq (outsAt0_B m c t h0 h1)
    refine (congrFun e (ix3 0 0 l)).trans ?_
    refine (congrFun (sout_B (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix3 0 0 l)).trans ?_
    exact pay2_apply (iblk m c 0 t) (iblk m c 1 t) (outsAt0 m c (t.val - 1) (Nat.lt_of_le_of_lt (Nat.sub_le _ _) t.isLt)).2 l

/-- At the last column block the output block is the accumulator as it then stands. -/
theorem out_last (c : Dev nD) (t : Fin cfg0.N) (h0 : ¬t.val % 16 = 0) (h1 : t.val % 16 = 15) :
    (outsAt0 m c t.val t.isLt).1 = (outsAt0 m c t.val t.isLt).2 := by
  have e1 := fst_of_eq (outsAt0_C m c t h0 h1)
  have e2 := snd_of_eq (outsAt0_C m c t h0 h1)
  refine e1.trans (Eq.trans ?_ e2.symm)
  exact (out_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) (outsAt0 m c (t.val - 1) (Nat.lt_of_le_of_lt (Nat.sub_le _ _) t.isLt)).2).symm

/-- THE ACCUMULATOR after point `n`: the tile sums of column blocks `0 … n % 16` of row block `n / 16`. -/
theorem scratch_eq (c : Dev nD) : ∀ (n : ℕ) (h : n < cfg0.N) (l : Fin 128),
    (outsAt0 m c n h).2 (ix3 0 0 l) = ∑ k ∈ Finset.range (n % 16 + 1), tileN m c (16 * (n / 16) + k)
  | 0, h, l => by
    rw [scratch_first m c ⟨0, h⟩ rfl (show ¬(0 : ℕ) % 16 = 15 by decide) l]
    show _ = ∑ k ∈ Finset.range 1, tileN m c (0 + k)
    rw [Finset.sum_range_one, tileN_eq m c _ h]
  | n + 1, h, l => by
    by_cases h0 : (n + 1) % 16 = 0
    · rw [scratch_first m c ⟨n + 1, h⟩ h0 (by dsimp only; omega) l]
      rw [show (n + 1) % 16 + 1 = 1 from by omega, Finset.sum_range_one,
        show 16 * ((n + 1) / 16) + 0 = n + 1 from by omega, tileN_eq m c _ h]
    · have ih := scratch_eq c n (Nat.lt_of_succ_lt h) l
      rw [scratch_next m c ⟨n + 1, h⟩ h0 l]
      show (outsAt0 m c n _).2 (ix3 0 0 l) + _ = _
      rw [show (n + 1) % 16 + 1 = (n % 16 + 1) + 1 from by omega, show (n + 1) / 16 = n / 16 from by omega,
        Finset.sum_range_succ _ (n % 16 + 1), show 16 * (n / 16) + (n % 16 + 1) = n + 1 from by omega, tileN_eq m c _ h, ih]

/-- What the result array ends holding: at (b, ·, ·) the 16 tile sums of row block b. -/
def partialSum (c : Dev nD) : S8x1x128.Idx → EReal := fun y => ∑ k ∈ Finset.range 16, tileN m c (16 * (y 0).val + k)

/-- The output window's block index at a point is (its row block, 0, 0); decided over the grid. -/
theorem out_index : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- WHAT A WRITING POINT WRITES BACK is its block of `partialSum`. -/
theorem flushed_eq (c : Dev nD) (t : Fin cfg0.N) (hf : (cfg0.win 2).flush t = true) :
    (dats m 0 c).flushed 2 t = ((cfg0.win 2).blk t).view.read (Elt Ideal) (partialSum m c) := by
  have h15 : t.val % 16 = 15 := (flush0_2 t).mp hf
  have hN : t.val < 128 := lt_of_lt_of_eq t.isLt N_0
  obtain ⟨e0, e1, e2⟩ := out_index t
  show (cfg0.win 2).cut (grid0.coords t) ((dats m 0 c).after 2 t) = _
  rw [after0_2, out_last m c t (by omega) h15]
  have key : ∀ y : S1x1x128.Idx,
      (outsAt0 m c t.val t.isLt).2 y = partialSum m c (((cfg0.win 2).blk t).view.emb y) := fun y => by
    have hy : y = ix3 0 0 (⟨(y 2).val, (y 2).isLt⟩ : Fin 128) := funext fun a => by
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => rfl
    rw [hy, scratch_eq m c t.val t.isLt _]
    unfold partialSum
    rw [show t.val % 16 + 1 = 16 from by omega]
    refine Finset.sum_congr rfl fun k _ => congrArg (tileN m c) ?_
    show 16 * (t.val / 16) + k = 16 * (win0_2.index t (0 : Fin 3) * 1 + 1 * 0) + k
    rw [e0]; omega
  exact funext key

/-- An index of the result array is in point `t`'s block iff each coordinate is in the block's range on its axis. -/
theorem mem_blk (t : Fin cfg0.N) (i : S8x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v23).slice (win0_2.rect t)).set ↔ _
  rw [View.set_slice_whole, Rect.mem_set_unit]
  exact Iff.rfl

/-- THE RESULT ARRAY after the run. -/
theorem final (c : Dev nD) : (dats m 0 c).arrAt 2 cfg0.N = partialSum m c :=
  (dats m 0 c).arrAt_eq_of_cover 2 (partialSum m c) (flushed_eq m c) fun i => by
    have hi0 : (i 0).val < 8 := (i 0).isLt
    have hi1 : (i 1).val < 1 := (i 1).isLt
    have hi2 : (i 2).val < 128 := (i 2).isLt
    have hN : cfg0.N = 128 := N_0
    have ht : 16 * (i 0).val + 15 < cfg0.N := by omega
    obtain ⟨e0, e1, e2⟩ := out_index ⟨16 * (i 0).val + 15, ht⟩
    refine ⟨⟨16 * (i 0).val + 15, ht⟩, (flush0_2 _).mpr (by dsimp only; omega), ?_⟩
    rw [mem_blk]
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 1 ≤ (i 1).val ∧ (i 1).val < win0_2.index _ (1 : Fin 3) * 1 + 1
      rw [e1]; omega
    | ⟨2, _⟩ =>
      show win0_2.index _ (2 : Fin 3) * 128 ≤ (i 2).val ∧ (i 2).val < win0_2.index _ (2 : Fin 3) * 128 + 128
      rw [e2]; omega

end Cert.KernelIdeal.Region

end
-- ==== Proof.KTiles.lean ====
/-
  The result array in terms of the two vectors the region finds.

  Point t's block of the column vector is its rows 2048·(t / 16) + r, and its block of the row vector its columns
  1024·(t % 16) + c; so the tile sum of point 16·b + k is the sum over tile (b, k) of the clamped differences of the
  two vectors, and entry (b, 0, l) of the result array is the sum of row block b's sixteen tiles.
-/
import proofs.«117087_j80530636800492_2_alg».proof.Proof.KRegion

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PairSum

variable (m : (ℓ : Loc nD τ sig) → Buf (Elt Ideal) ℓ)

/-- The column vector as the region finds it, -/
abbrev colVec (c : Dev nD) : S16384x1.Idx → EReal := V m c main_v21
/-- and the row vector. -/
abbrev rowVec (c : Dev nD) : S1x16384.Idx → EReal := V m c main_v22

/-- One pair's clamped difference of the two vectors. -/
def pairV (c : Dev nD) (i j : Fin 16384) : EReal := max (rowVec m c (ix2 0 j) - colVec m c (ix2 i 0)) zero

/-- The input windows' block indices at a point: (row block, 0) and (0, column block); decided over the grid. -/
theorem in_index : ∀ t : Fin cfg0.N, win0_0.index t (0 : Fin 2) = t.val / 16 ∧ win0_0.index t (1 : Fin 2) = 0
    ∧ win0_1.index t (0 : Fin 2) = 0 ∧ win0_1.index t (1 : Fin 2) = t.val % 16 :=
  (by decide +kernel : ∀ t : Fin grid0.N, win0_0.index t (0 : Fin 2) = t.val / 16 ∧ win0_0.index t (1 : Fin 2) = 0
    ∧ win0_1.index t (0 : Fin 2) = 0 ∧ win0_1.index t (1 : Fin 2) = t.val % 16)

/-- A point's block of the column vector, read at row `r`. -/
theorem blk0_apply (c : Dev nD) (t : Fin cfg0.N) (b : Fin 8) (hb : t.val / 16 = b.val) (r : Fin 2048) :
    blk0 m c t (ix2 r 0) = colVec m c (ix2 (rowIdx b r) 0) := by
  obtain ⟨e0, e1, -, -⟩ := in_index t
  unfold blk0 iblk
  rw [View.read_apply]
  show V m c main_v21 (((cfg0.win 0).blk t).view.emb (ix2 r 0)) = V m c main_v21 (ix2 (rowIdx b r) 0)
  refine congrArg (V m c main_v21) ?_
  funext a
  apply Fin.ext
  match a with
  | ⟨0, _⟩ => show win0_0.index t (0 : Fin 2) * 2048 + 1 * r.val = 2048 * b.val + r.val; rw [e0, hb]; omega
  | ⟨1, _⟩ => show win0_0.index t (1 : Fin 2) * 1 + 1 * 0 = 0; rw [e1]

/-- A point's block of the row vector, read at column `cc`. -/
theorem blk1_apply (c : Dev nD) (t : Fin cfg0.N) (k : Fin 16) (hk : t.val % 16 = k.val) (cc : Fin 1024) :
    blk1 m c t (ix2 0 cc) = rowVec m c (ix2 0 (colIdx k cc)) := by
  obtain ⟨-, -, e2, e3⟩ := in_index t
  unfold blk1 iblk
  rw [View.read_apply]
  show V m c main_v22 (((cfg0.win 1).blk t).view.emb (ix2 0 cc)) = V m c main_v22 (ix2 0 (colIdx k cc))
  refine congrArg (V m c main_v22) ?_
  funext a
  apply Fin.ext
  match a with
  | ⟨0, _⟩ => show win0_1.index t (0 : Fin 2) * 1 + 1 * 0 = 0; rw [e2]
  | ⟨1, _⟩ => show win0_1.index t (1 : Fin 2) * 1024 + 1 * cc.val = 1024 * k.val + cc.val; rw [e3, hk]; omega

/-- The tile sum of the point of row block `b` and column block `k` is the pairs' sum over that tile. -/
theorem tileAt_eq (c : Dev nD) (t : Fin cfg0.N) (b : Fin 8) (k : Fin 16) (hb : t.val / 16 = b.val) (hk : t.val % 16 = k.val) :
    tileAt m c t = tile (pairV m c) b k := by
  unfold tileAt tile pairV
  refine Finset.sum_congr rfl fun r _ => Finset.sum_congr rfl fun cc _ => ?_
  rw [blk0_apply m c t b hb r, blk1_apply m c t k hk cc]

/-- THE RESULT ARRAY at (b, 0, l): the sum of the sixteen tiles of row block b. -/
theorem region_value (c : Dev nD) (b : Fin 8) (l : Fin 128) :
    ((dats m 0 c).arrAt 2 cfg0.N : S8x1x128.Idx → EReal) (ix3 b 0 l) = ∑ k : Fin 16, tile (pairV m c) b k := by
  rw [final m c]
  show ∑ k ∈ Finset.range 16, tileN m c (16 * b.val + k) = _
  rw [Finset.sum_range]
  refine Finset.sum_congr rfl fun k _ => ?_
  have hN : cfg0.N = 128 := N_0
  have h : 16 * b.val + k.val < cfg0.N := by have := b.isLt; have := k.isLt; omega
  rw [tileN_eq m c _ h]
  exact tileAt_eq m c ⟨16 * b.val + k.val, h⟩ b k (by dsimp only; omega) (by dsimp only; omega)

end Cert.KernelIdeal.Region

end
-- ==== Proof.Probs.lean ====
/-
  The probability vector both programs start from: entry `i` is the second component of the softmax of row `i` of the
  predictions, `exp (x i 1 - M i) / (exp (x i 0 - M i) + exp (x i 1 - M i))` with `M i` the row's maximum.  It is named
  here through the reference's own stage for that value, so that neither side ever has to open the softmax to compare
  it with the other's.
-/
import proofs.«117087_j80530636800492_2_alg».proof.Proof.Spec
import proofs.«117087_j80530636800492_2_alg».proof.Proof.Gen.ReferenceIdeal.Read

noncomputable section

namespace Cert.PairSum

open Idealize.ShloMosaic

/-- The probabilities `p i` of a prediction array `x`. -/
def probs (x : (⟨2, ![16384, 2]⟩ : Shape).Idx → EReal) (i : Fin 16384) : EReal :=
  Cert.ReferenceIdeal.Read.val_main_v12 (F := Ideal) x (ValueIdx.ix1 i)

end Cert.PairSum

end
-- ==== Proof.KHost.lean ====
/-
  The kernel program's host operations around its one region, read at an index, at the ideal reading.

  Before the region the host computes the probability vector `p` (the second column of the softmax of the predictions —
  the same sixteen operations the reference program starts with, so it is named through the reference's stage), masks it
  twice — `pos = p` where the label is 1 and the large constant elsewhere, `neg = p + δ` where the label is 0 and minus the
  large constant elsewhere — and reshapes the two vectors into a column and a row: the region's two operands.  After the
  region it takes the first lane of each of the eight row blocks' totals, sums them from zero, and divides by the count
  of positives, itself summed from zero and clamped to at least one.
-/
import proofs.«117087_j80530636800492_2_alg».proof.Proof.Probs
import proofs.«117087_j80530636800492_2_alg».proof.Proof.Gen.KernelIdeal.Frame
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.HostValue

open Cert.KernelIdeal Cert.KernelIdeal.Gen Cert.PairSum Idealize.ShloMosaic Idealize.ShloMosaic.TcCoe Idealize.SL.Sem
open Idealize.ShloMosaic.StableHlo

variable (m : (ℓ : Loc nD τ sig) → Buf (Elt Ideal) ℓ)

set_option maxHeartbeats 1000000 in
/-- The kernel's first sixteen host operations are the reference's: its probability vector is the reference's stage. -/
theorem V_v12 (c : Dev nD) :
    (V m c main_v12 : S16384.Idx → EReal)
      = Cert.ReferenceIdeal.Read.val_main_v12 (F := Ideal) (m ((c.tc : Thread nD τ).loc main_arg0)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The positives' operand as a term: the probabilities where the label is 1, the large constant elsewhere, as a column. -/
theorem V_v21_eq (c : Dev nD) :
    (V m c main_v21 : S16384x1.Idx → EReal)
      = shapeCast S16384x1
          (select
            (cmpi .eq (m ((c.tc : Thread nD τ).loc main_arg1) : S16384.Idx → BitVec 32)
              (broadcastInDim S16384 ![] Facts₀.bcast_S_S16384 (constantI S_ 32 1#32)))
            (Cert.ReferenceIdeal.Read.val_main_v12 (F := Ideal) (m ((c.tc : Thread nD τ).loc main_arg0)))
            (broadcastInDim S16384 ![] Facts₀.bcast_S_S16384 (id (constant (F := Ideal) S_ .f32 0x49742400#32))))
          Facts₀.shapeCasts_S16384_S16384x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The negatives' operand as a term: the probabilities plus the margin where the label is 0, minus the large constant
    elsewhere, as a row. -/
theorem V_v22_eq (c : Dev nD) :
    (V m c main_v22 : S1x16384.Idx → EReal)
      = shapeCast S1x16384
          (select
            (cmpi .eq (m ((c.tc : Thread nD τ).loc main_arg1) : S16384.Idx → BitVec 32)
              (broadcastInDim S16384 ![] Facts₀.bcast_S_S16384 (constantI S_ 32 0#32)))
            (addf (Cert.ReferenceIdeal.Read.val_main_v12 (F := Ideal) (m ((c.tc : Thread nD τ).loc main_arg0)))
              (broadcastInDim S16384 ![] Facts₀.bcast_S_S16384 (constant (F := Ideal) S_ .f32 0x3C23D70A#32)))
            (broadcastInDim S16384 ![] Facts₀.bcast_S_S16384 (id (constant (F := Ideal) S_ .f32 0xC9742400#32))))
          Facts₀.shapeCasts_S16384_S1x16384 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- Row `i` of the kernel's first operand is the positives' vector at `i`. -/
theorem V_pos (c : Dev nD) (i : Fin 16384) :
    (V m c main_v21 : S16384x1.Idx → EReal) (ValueIdx.ix2 i 0)
      = posV (labelIs 1#32 (m ((c.tc : Thread nD τ).loc main_arg1))) (probs (m ((c.tc : Thread nD τ).loc main_arg0))) i := by
  rw [V_v21_eq]
  rw [shapeCast_apply _ Facts₀.shapeCasts_S16384_S16384x1 (ValueIdx.ix2 i 0) (ValueIdx.ix1 i)
    (by rewrite [Shape.rowMajor_val_two, Shape.rowMajor_val_one]; show i.val = i.val * 1 + 0; omega)]
  rw [ValueIdx.select_apply]
  rfl

/-- Column `j` of the kernel's second operand is the negatives' vector at `j`. -/
theorem V_neg (c : Dev nD) (j : Fin 16384) :
    (V m c main_v22 : S1x16384.Idx → EReal) (ValueIdx.ix2 0 j)
      = negV (labelIs 0#32 (m ((c.tc : Thread nD τ).loc main_arg1))) (probs (m ((c.tc : Thread nD τ).loc main_arg0))) j := by
  rw [V_v22_eq]
  rw [shapeCast_apply _ Facts₀.shapeCasts_S16384_S1x16384 (ValueIdx.ix2 0 j) (ValueIdx.ix1 j)
    (by rewrite [Shape.rowMajor_val_two, Shape.rowMajor_val_one]; show j.val = 0 * 16384 + j.val; omega)]
  rw [ValueIdx.select_apply]
  rfl

set_option maxHeartbeats 1000000 in
/-- The host operations after the region, composed: the quotient of the summed block totals by the clamped count of
    positives, over any buffer contents `W` they start from. -/
theorem tail_term (W : Valuation τ sig (Elt Ideal)) :
    (StableHlo.after (hostOps1 (F := Ideal)) W (Proc.devRef .tc main_v32) : S_.Idx → EReal)
      = Host.divf
          (Host.reduceAdd
            (shapeCast S8
              (extractStridedSlice S8x1x1 ![0, 0, 0] (W (Proc.devRef .tc main_v23) : S8x1x128.Idx → EReal)
                Facts₀.slices_S8x1x128_S8x1x1_0_0_0)
              Facts₀.shapeCasts_S8x1x1_S8)
            (constant (F := Ideal) S_ .f32 0x00000000#32) Facts₀.reducesTo_S8_S_d0 Facts₀.h_S_)
          (maximumf
            (Host.reduceAdd
              (uitofp (F := Ideal) .f32
                (cmpi .eq (W (Proc.devRef .tc main_arg1) : S16384.Idx → BitVec 32)
                  (broadcastInDim S16384 ![] Facts₀.bcast_S_S16384 (constantI S_ 32 1#32))))
              (constant (F := Ideal) S_ .f32 0x00000000#32) Facts₀.reducesTo_S16384_S_d0 Facts₀.h_S_)
            (constant (F := Ideal) S_ .f32 0x3F800000#32)) := by
  simp only [Gen.hostOps1]
  after_results
  rfl

/-- The sum over the one-axis index type is the sum over its coordinate. -/
theorem sum_idx1 {n : Nat} (f : (⟨1, ![n]⟩ : Shape).Idx → EReal) :
    ∑ j : (⟨1, ![n]⟩ : Shape).Idx, f j = ∑ k : Fin n, f (ValueIdx.ix1 k) := by
  refine Fintype.sum_equiv ⟨fun j => j 0, ValueIdx.ix1, fun j => (ValueIdx.eq_ix1 j).symm, fun k => rfl⟩ _ _ fun j => ?_
  exact congrArg f (ValueIdx.eq_ix1 j)

/-- The host's quotient at an index is the quotient of the operands there. -/
theorem hostDivf_apply {s : Shape} {φ : FTy} (a b : FVec Ideal s φ) (i : s.Idx) :
    Host.divf a b i = Ideal.div (a i) (b i) := rfl

/-- The loss from any contents `W` whose output array holds the block totals `P` in its first lane and whose label
    buffer is `lab`. -/
theorem tail_generic (W : Valuation τ sig (Elt Ideal)) (P : Fin 8 → EReal) (lab : S16384.Idx → BitVec 32)
    (h23 : ∀ b : Fin 8, (W (Proc.devRef .tc main_v23) : S8x1x128.Idx → EReal) (ValueIdx.ix3 b 0 0) = P b)
    (hlab : (W (Proc.devRef .tc main_arg1) : S16384.Idx → BitVec 32) = lab) (i : S_.Idx) :
    (StableHlo.after (hostOps1 (F := Ideal)) W (Proc.devRef .tc main_v32) : S_.Idx → EReal) i
      = loss (∑ b : Fin 8, P b) (labelIs 1#32 lab) := by
  rw [tail_term, hlab]
  generalize (W (Proc.devRef .tc main_v23) : S8x1x128.Idx → EReal) = y at h23
  rw [hostDivf_apply, ValueIdx.maximumf_apply, ValueIdx.constant_apply]
  unfold loss
  refine congrArg₂ Ideal.div ?_ (congrArg (max · one) ?_)
  · simp only [Host.reduceAdd, Ideal.hostReduceAdd_def]
    rw [Ideal.hostReduceAdd_total Facts₀.reducesTo_S8_S_d0 (fun b => b.elim0)]
    refine congrArg (_ + ·) ?_
    rw [sum_idx1]
    refine Finset.sum_congr rfl fun b _ => ?_
    rw [shapeCast_apply _ Facts₀.shapeCasts_S8x1x1_S8 (ValueIdx.ix1 b) (ValueIdx.ix3 b 0 0)
      (by rewrite [Shape.rowMajor_val_three, Shape.rowMajor_val_one]; show (b.val * 1 + 0) * 1 + 0 = b.val; omega)]
    rw [extractStridedSlice_apply ![0, 0, 0] y Facts₀.slices_S8x1x128_S8x1x1_0_0_0 (ValueIdx.ix3 b 0 0) (ValueIdx.ix3 b 0 0)
      (fun a => match a with
        | ⟨0, _⟩ => by show b.val = 0 + b.val; omega
        | ⟨1, _⟩ => by show 0 = 0 + 0; omega
        | ⟨2, _⟩ => by show 0 = 0 + 0; omega)]
    exact h23 b
  · simp only [Host.reduceAdd, Ideal.hostReduceAdd_def]
    rw [Ideal.hostReduceAdd_total Facts₀.reducesTo_S16384_S_d0 (fun b => b.elim0)]
    refine congrArg (_ + ·) ?_
    rw [sum_idx1]
    rfl

/-- The program's result: the loss of the summed block totals `P`, once the region has left them in the first lane of
    its output array. -/
theorem tail_value (c : Dev nD) (P : Fin 8 → EReal)
    (hP : ∀ b : Fin 8, ((dats m 0 c).arrAt 2 cfg0.N : S8x1x128.Idx → EReal) (ValueIdx.ix3 b 0 0) = P b) (i : S_.Idx) :
    (Pipeline.afterTail₀ cfgs (dats m) 0 (V0 m) [hostOps1] c main_v32 : S_.Idx → EReal) i
      = loss (∑ b : Fin 8, P b) (labelIs 1#32 (m ((c.tc : Thread nD τ).loc main_arg1))) := by
  unfold Pipeline.afterTail₀
  simp only [List.flatten_cons, List.flatten_nil, List.append_nil]
  refine tail_generic _ P _ (fun b => ?_) ?_ i
  · have h := Pipeline.withArrays_arr spec0 launch0.win.arr_inj c (V0 m c) (fun w => (dats m 0 c).arrAt w cfg0.N) 2
    exact (congrFun h (ValueIdx.ix3 b 0 0)).trans (hP b)
  · exact (Pipeline.withArrays_of_ne spec0 c (V0 m c) (fun w => (dats m 0 c).arrAt w cfg0.N) main_arg1
      (by exact (by decide : ∀ w, Pipeline.arrRef spec0 w ≠ main_arg1))).trans (V_main_arg1 m c)

end Cert.KernelIdeal.HostValue

end
-- ==== Proof.SpecLemmas.lean ====
/-
  Pure facts about the pair-sum specification: the five constants as real numbers, one pair's term as the kernel computes
  it equals the reference's weighted term whenever the probabilities are real numbers in [0, 1], and the sum over the
  8 × 16 tiles of 2048 × 1024 pairs is the sum over all pairs.
-/
import proofs.«117087_j80530636800492_2_alg».proof.Proof.Spec
import Mathlib.Tactic

noncomputable section

namespace Cert.PairSum

open Idealize.ShloMosaic

/-! ## The constants -/

/-- The pattern of all zeros denotes 0. -/
theorem zero_eq : zero = 0 := by
  simp [zero, Ideal.ofBits, Ideal.ieee]

/-- Exponent field 127, fraction 0: 2²³ · 2⁻²³ = 1. -/
theorem one_eq : one = 1 := by
  simp [one, Ideal.ofBits, Ideal.ieee, -EReal.coe_mul]; norm_num

/-- Exponent field 146, fraction 7611392: (2²³ + 7611392) · 2⁻⁴ = 16000000 / 16 = 10⁶. -/
theorem big_eq : big = ((1000000 : ℝ) : EReal) := by
  simp [big, Ideal.ofBits, Ideal.ieee, -EReal.coe_mul]; norm_num

/-- The same pattern with the sign bit set: -10⁶. -/
theorem nbig_eq : nbig = ((-1000000 : ℝ) : EReal) := by
  simp [nbig, Ideal.ofBits, Ideal.ieee, -EReal.coe_mul]; norm_num

/-- Exponent field 120, fraction 2348810: (2²³ + 2348810) · 2⁻³⁰ = 10737418 / 2³⁰, just below 0.01. -/
theorem delta_eq : delta = ((10737418 / 1073741824 : ℝ) : EReal) := by
  simp [delta, Ideal.ofBits, Ideal.ieee, -EReal.coe_mul]; norm_num

/-- The margin is a real number in [0, 1]. -/
theorem delta_bounds : ∃ d : ℝ, delta = (d : EReal) ∧ 0 ≤ d ∧ d ≤ 1 :=
  ⟨10737418 / 1073741824, delta_eq, by norm_num, by norm_num⟩

/-! ## One pair -/

/-- The maximum of two real numbers, taken among the extended reals, is their maximum as real numbers. -/
theorem coe_max_coe (a b : ℝ) : max (a : EReal) (b : EReal) = ((max a b : ℝ) : EReal) :=
  (EReal.coe_strictMono.monotone.map_max).symm

/-- The bit 0 counts as the real number 0, -/
theorem toNat_zero_bit : (((0#1 : BitVec 1).toNat : ℕ) : ℝ) = 0 := by simp
/-- and the bit 1 as the real number 1. -/
theorem toNat_one_bit : (((1#1 : BitVec 1).toNat : ℕ) : ℝ) = 1 := by simp

/-- A pair's term, the kernel's way and the reference's way.  Where both tests hold the two are the same real number,
    `max (p j + δ - p i) 0`.  Where a test fails the reference's weight is 0, and the kernel's difference is at most
    `(1 + 1) - 10⁶` (or `-10⁶ - 0`, or `-10⁶ - 10⁶`), a negative number, so its maximum with 0 is 0. -/
theorem pair_eq {p : Fin 16384 → EReal} (hp : IsProb p) (c1 c0 : Fin 16384 → BitVec 1) (i j : Fin 16384) :
    pairK c1 c0 p i j = pairR c1 c0 p i j := by
  obtain ⟨ri, hri, hri0, hri1⟩ := hp i
  obtain ⟨rj, hrj, hrj0, hrj1⟩ := hp j
  obtain ⟨d, hd, hd0, hd1⟩ := delta_bounds
  unfold pairK pairR negV posV
  rw [hri, hrj, hd, zero_eq, big_eq, nbig_eq]
  rcases BitVec.eq_zero_or_eq_one (c1 i) with h1 | h1 <;>
    rcases BitVec.eq_zero_or_eq_one (c0 j) with h0 | h0 <;>
    rw [h1, h0] <;>
    simp only [ValueIdx.select_one, ValueIdx.select_zero, ← EReal.coe_add, ← EReal.coe_sub, ← EReal.coe_zero,
      coe_max_coe, ← EReal.coe_mul, EReal.coe_eq_coe_iff]
  · rw [toNat_zero_bit, mul_zero, mul_zero]; exact max_eq_right (by norm_num)
  · rw [toNat_zero_bit, zero_mul, mul_zero]; exact max_eq_right (by linarith)
  · rw [toNat_zero_bit, mul_zero, mul_zero]; exact max_eq_right (by linarith)
  · rw [toNat_one_bit, mul_one, mul_one]; congr 1; ring

/-! ## The tiles -/

/-- A row index is a block of 2048 and a place in it. -/
def rowEquiv : Fin 8 × Fin 2048 ≃ Fin 16384 where
  toFun x := rowIdx x.1 x.2
  invFun i := (⟨i.val / 2048, by omega⟩, ⟨i.val % 2048, by omega⟩)
  left_inv := by
    rintro ⟨⟨b, hb⟩, ⟨r, hr⟩⟩
    simp only [rowIdx, Prod.mk.injEq, Fin.mk.injEq]
    constructor <;> omega
  right_inv := by
    rintro ⟨i, hi⟩
    simp only [rowIdx, Fin.mk.injEq]
    omega

/-- A column index is a block of 1024 and a place in it. -/
def colEquiv : Fin 16 × Fin 1024 ≃ Fin 16384 where
  toFun x := colIdx x.1 x.2
  invFun i := (⟨i.val / 1024, by omega⟩, ⟨i.val % 1024, by omega⟩)
  left_inv := by
    rintro ⟨⟨k, hk⟩, ⟨c, hc⟩⟩
    simp only [colIdx, Prod.mk.injEq, Fin.mk.injEq]
    constructor <;> omega
  right_inv := by
    rintro ⟨i, hi⟩
    simp only [colIdx, Fin.mk.injEq]
    omega

/-- Summing block by block over the rows is summing over the rows. -/
theorem sum_rows (g : Fin 16384 → EReal) : ∑ b : Fin 8, ∑ r : Fin 2048, g (rowIdx b r) = ∑ i : Fin 16384, g i :=
  (Fintype.sum_prod_type' (fun b r => g (rowIdx b r))).symm.trans
    (Fintype.sum_equiv rowEquiv _ _ (fun _ => rfl))

/-- Summing block by block over the columns is summing over the columns. -/
theorem sum_cols (g : Fin 16384 → EReal) : ∑ k : Fin 16, ∑ c : Fin 1024, g (colIdx k c) = ∑ j : Fin 16384, g j :=
  (Fintype.sum_prod_type' (fun k c => g (colIdx k c))).symm.trans
    (Fintype.sum_equiv colEquiv _ _ (fun _ => rfl))

/-- The 8 × 16 tiles partition the pairs: exchange the column-block sum with the in-block row sum, collect each row's
    columns, then collect the rows. -/
theorem sum_tiles (f : Fin 16384 → Fin 16384 → EReal) :
    ∑ b : Fin 8, ∑ k : Fin 16, tile f b k = ∑ i : Fin 16384, ∑ j : Fin 16384, f i j := by
  unfold tile
  rw [← sum_rows (fun i => ∑ j : Fin 16384, f i j)]
  refine Finset.sum_congr rfl (fun b _ => ?_)
  rw [Finset.sum_comm]
  refine Finset.sum_congr rfl (fun r _ => ?_)
  exact sum_cols (fun j => f (rowIdx b r) j)

/-- A sum over the first 16 natural numbers is a sum over `Fin 16`. -/
theorem sum_range_fin16 (g : ℕ → EReal) : ∑ k ∈ Finset.range 16, g k = ∑ k : Fin 16, g k.val :=
  Finset.sum_range g

end Cert.PairSum

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«117087_j80530636800492_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Softmax.lean ====
/-
  A softmax of finite numbers is a probability, and the printed precondition makes the predictions finite.

  Row `i` of the predictions holds two numbers `a = x i 0` and `b = x i 1`. With `M` the row's maximum (taken from
  `-∞`, then once more against `-∞`), the probability is `exp (b - M) / (0 + (exp (a - M) + exp (b - M)))`. When `a` and
  `b` are real numbers so is `M`; then both exponentials are positive reals, their sum is a positive real, and the
  quotient is the real `e₁ / (e₀ + e₁)`, which lies in [0, 1] because the numerator is one of the two positive terms of
  the denominator.

  * `allReal_of_pre`    the precondition "every |x| is below +∞" answered 1, so every prediction is a real;
  * `isReal_fold_max`   the maximum, from `⊥`, of a nonempty family of reals is a real;
  * `rowMax_isReal`     the row maximum the reference subtracts is a real;
  * `expShift_isPos`    the exponential of a prediction minus its row's maximum is a positive real;
  * `quot_mem_unit`     `e₁ / (0 + (e₀ + e₁))` is a real in [0, 1] for positive reals `e₀`, `e₁`;
  * `probs_isProb`      every entry of `probs x` is a real in [0, 1].
-/
import proofs.«117087_j80530636800492_2_alg».proof.Proof.Probs
import proofs.«117087_j80530636800492_2_alg».proof.Proof.LibFiniteTest
import proofs.«117087_j80530636800492_2_alg».proof.Proof.Gen.Pre_finite_inputs

noncomputable section

namespace Cert.PairSum

open Idealize.ShloMosaic Cert.Lib.RealValued Cert.ReferenceIdeal Cert.ReferenceIdeal.Read

/-! ## The precondition -/

/-- The printed precondition answered `1`: every prediction is a real number. -/
theorem allReal_of_pre (x : FVec Ideal Cert.Pre_finite_inputs.S16384x2 .f32) (lab : IVec Cert.Pre_finite_inputs.S16384 32)
    (h : Cert.Pre_finite_inputs.fn (F := Ideal) x lab = fun _ => 1#1) : Cert.Lib.RealValued.AllReal x := by
  haveI : Subsingleton Cert.Pre_finite_inputs.S_.Idx := ⟨fun a b => funext fun d => d.elim0⟩
  have h0 := congrFun h ValueIdx.ix0
  dsimp only [Cert.Pre_finite_inputs.fn] at h0
  exact Cert.Lib.FiniteTest.allReal_of_all x _ _ _ _ _ ValueIdx.ix0 h0

/-! ## Small facts about extended reals -/

/-- The f32 pattern of `-∞` denotes `⊥`. -/
theorem ofBits_ninf : Ideal.ofBits .f32 0xFF800000#32 = (⊥ : EReal) := by
  simp [Ideal.ofBits, Ideal.ieee]

/-- The f32 pattern of `+0` denotes `0`. -/
theorem ofBits_zero : Ideal.ofBits .f32 0x00000000#32 = (0 : EReal) := by
  simp [Ideal.ofBits, Ideal.ieee]

/-- The maximum, taken from `⊥`, of a nonempty finite family of reals is a real. -/
theorem isReal_fold_max {ι : Type*} (f : ι → EReal) (hf : ∀ i, IsReal (f i)) {S : Finset ι} (hS : S.Nonempty) :
    IsReal (S.fold max ⊥ f) := by
  induction hS using Finset.Nonempty.cons_induction with
  | singleton a => rw [Finset.fold_singleton]; simpa using hf a
  | cons a s h hs ih => rw [Finset.fold_cons]; exact (hf a).max ih

/-- For positive reals `e₀`, `e₁` the quotient `e₁ / (0 + (e₀ + e₁))` is a real in [0, 1]. -/
theorem quot_mem_unit {e0 e1 : EReal} (h0 : IsPos e0) (h1 : IsPos e1) :
    ∃ r : ℝ, Ideal.div e1 (0 + (e0 + e1)) = (r : EReal) ∧ 0 ≤ r ∧ r ≤ 1 := by
  obtain ⟨a, ha, rfl⟩ := h0
  obtain ⟨b, hb, rfl⟩ := h1
  have hab : a + b ≠ 0 := by positivity
  refine ⟨b * (1 / (a + b)), ?_, by positivity, ?_⟩
  · rw [zero_add, ← EReal.coe_add, Ideal.div_coe hab, ← EReal.coe_mul]
  · rw [mul_one_div, div_le_one (by positivity)]; linarith

/-! ## The stages of the softmax -/

/-- The row maximum the reference subtracts is a real number. -/
theorem rowMax_isReal (x : S16384x2.Idx → EReal) (hx : AllReal x) (i : S16384.Idx) :
    IsReal (val_main_v2 (F := Ideal) x i) := by
  rw [val_main_v2_apply, val_main_v1_apply, val_main_cst_0_apply]
  show IsReal (max (Ideal.ofBits .f32 0xFF800000#32) (val_main_v0 (F := Ideal) x i))
  rw [ofBits_ninf, max_eq_right bot_le]
  unfold val_main_v0
  rw [Host.reduce_eq_fold_single (a := 1) _ x _ Gen.reducesTo_S16384x2_S16384_d1 (by decide) Gen.h_S_ i, val_main_cst_apply]
  show IsReal (Finset.fold max (Ideal.ofBits .f32 0xFF800000#32) _ _)
  rw [ofBits_ninf]
  exact isReal_fold_max _ (fun k => hx _) ⟨⟨0, by decide⟩, Finset.mem_univ _⟩

/-- The exponential of a prediction minus its row's maximum is a positive real. -/
theorem expShift_isPos (x : S16384x2.Idx → EReal) (hx : AllReal x) (j : S16384x2.Idx) :
    IsPos (val_main_v6 (F := Ideal) x j) := by
  rw [val_main_v6_apply, val_main_v5_apply, val_main_v4_apply, val_main_v3_apply]
  obtain ⟨a, ha⟩ := hx j
  obtain ⟨m, hm⟩ := rowMax_isReal x hx (idx_main_v3 (idx_main_v4 j))
  rw [ha, hm]
  show IsPos (Ideal.exp ((a : EReal) - (m : EReal)))
  rw [← EReal.coe_sub, Ideal.exp_coe]
  exact ⟨_, Real.exp_pos _, rfl⟩

/-! ## The probabilities -/

/-- Every entry of the probability vector of a real-valued prediction array is a real number in [0, 1]. -/
theorem probs_isProb (x : (⟨2, ![16384, 2]⟩ : Shape).Idx → EReal) (hx : Cert.Lib.RealValued.AllReal x) : IsProb (probs x) := by
  intro i
  unfold probs
  rw [val_main_v12_apply, val_main_v11_apply, val_main_v10_apply, val_main_v9_apply, val_main_v8_apply,
    val_main_v7_apply, val_main_cst_1_apply, Fin.sum_univ_two]
  show ∃ r : ℝ, Ideal.div _ (Ideal.ofBits .f32 0x00000000#32 + _) = (r : EReal) ∧ 0 ≤ r ∧ r ≤ 1
  rw [ofBits_zero]
  have e : idx_main_v7 (idx_main_v8 (idx_main_v9 (idx_main_v11 (idx_main_v12 (ValueIdx.ix1 i))))) 1
      = idx_main_v11 (idx_main_v12 (ValueIdx.ix1 i)) :=
    funext fun a => Fin.ext (by match a with | ⟨0, _⟩ => rfl | ⟨1, _⟩ => rfl)
  rw [e]
  exact quot_mem_unit (expShift_isPos x hx _) (expShift_isPos x hx _)

end Cert.PairSum

end
-- ==== Proof.KValue.lean ====
/-
  The kernel program's result: the loss of the pairs' sum.

  The region's result array holds at (b, 0, l) the sum of row block b's sixteen tiles of clamped differences of the
  two masked vectors; the lines after the region take lane 0 of each block, sum the eight numbers from zero and divide
  by the count of positives clamped to at least one.  The 8 × 16 tiles partition the pairs, so the numerator is the sum
  over all pairs; each pair's clamped difference of the masked vectors is the reference's weighted term, because the
  probabilities are real numbers in [0, 1] (the predictions being finite) and a masked pair is pushed below zero.
-/
import proofs.«117087_j80530636800492_2_alg».proof.Proof.KTiles
import proofs.«117087_j80530636800492_2_alg».proof.Proof.KHost
import proofs.«117087_j80530636800492_2_alg».proof.Proof.SpecLemmas
import proofs.«117087_j80530636800492_2_alg».proof.Proof.Softmax

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PairSum

variable (m : (ℓ : Loc nD τ sig) → Buf (Elt Ideal) ℓ)

/-- A pair's clamped difference of the vectors the region finds is the kernel's pair term of the probabilities. -/
theorem pairV_eq (c : Dev nD) (i j : Fin 16384) :
    pairV m c i j = pairK (labelIs 1#32 (m ((c.tc : Thread nD τ).loc main_arg1))) (labelIs 0#32 (m ((c.tc : Thread nD τ).loc main_arg1)))
      (probs (m ((c.tc : Thread nD τ).loc main_arg0))) i j := by
  unfold pairV pairK colVec rowVec
  rw [Cert.KernelIdeal.HostValue.V_pos m c i, Cert.KernelIdeal.HostValue.V_neg m c j]

/-- THE KERNEL PROGRAM'S RESULT, when the predictions are real numbers. -/
theorem kernel_value (c : Dev nD) (hx : Cert.Lib.RealValued.AllReal (m ((c.tc : Thread nD τ).loc main_arg0))) (i : S_.Idx) :
    (Pipeline.afterTail₀ cfgs (dats m) 0 (V0 m) [hostOps1] c main_v32 : S_.Idx → EReal) i
      = loss (∑ a : Fin 16384, ∑ b : Fin 16384,
          pairR (labelIs 1#32 (m ((c.tc : Thread nD τ).loc main_arg1))) (labelIs 0#32 (m ((c.tc : Thread nD τ).loc main_arg1)))
            (probs (m ((c.tc : Thread nD τ).loc main_arg0))) a b)
        (labelIs 1#32 (m ((c.tc : Thread nD τ).loc main_arg1))) := by
  rw [Cert.KernelIdeal.HostValue.tail_value m c (fun b => ∑ k : Fin 16, tile (pairV m c) b k)
    (fun b => region_value m c b 0) i]
  refine congrArg (fun tot => loss tot _) ?_
  rw [sum_tiles]
  refine Finset.sum_congr rfl fun a _ => Finset.sum_congr rfl fun b _ => ?_
  rw [pairV_eq, pair_eq (probs_isProb _ hx)]

end Cert.KernelIdeal.Region

end
-- ==== Proof.RefValue.lean ====
/-
  The reference's result is the loss of the pairs' sum.

  Read at one pair (a, b), the reference's product array is the clamped difference `max ((p b - p a) + δ) 0` times the
  two indicator weights `[label a = 1] · [label b = 0]`: each broadcast reads its operand at the row or at the column
  of the pair.  The sum over the rank-2 index set is the double sum over rows and columns, the sum over the rank-1 index
  set the sum over entries, and the quotient of the two sums (the second clamped to at least one) is the loss.
-/
import proofs.«117087_j80530636800492_2_alg».proof.Proof.Probs

noncomputable section

namespace Cert.PairSum

open Idealize.ShloMosaic Cert.ReferenceIdeal

/-- The row-broadcast of the column-broadcast reads the vector at the pair's column. -/
theorem idx_v19_v21 (a b : Fin 16384) :
    Read.idx_main_v19 (Read.idx_main_v21 (ValueIdx.ix2 a b)) = ValueIdx.ix1 b :=
  funext fun d => Fin.ext (by match d with | ⟨0, _⟩ => rfl)

/-- The column-broadcast of the row-broadcast reads the vector at the pair's row. -/
theorem idx_v20_v22 (a b : Fin 16384) :
    Read.idx_main_v20 (Read.idx_main_v22 (ValueIdx.ix2 a b)) = ValueIdx.ix1 a :=
  funext fun d => Fin.ext (by match d with | ⟨0, _⟩ => rfl)

/-- The positives' weight is read at the pair's row. -/
theorem idx_v27_v29 (a b : Fin 16384) :
    Read.idx_main_v27 (Read.idx_main_v29 (ValueIdx.ix2 a b)) = ValueIdx.ix1 a :=
  funext fun d => Fin.ext (by match d with | ⟨0, _⟩ => rfl)

/-- The negatives' weight is read at the pair's column. -/
theorem idx_v28_v30 (a b : Fin 16384) :
    Read.idx_main_v28 (Read.idx_main_v30 (ValueIdx.ix2 a b)) = ValueIdx.ix1 b :=
  funext fun d => Fin.ext (by match d with | ⟨0, _⟩ => rfl)

/-- One element of the reference's product array is the pair's term. -/
theorem ref_pair (x : (⟨2, ![16384, 2]⟩ : Shape).Idx → EReal) (lab : (⟨1, ![16384]⟩ : Shape).Idx → BitVec 32)
    (a b : Fin 16384) :
    Read.val_main_v32 (F := Ideal) x lab (ValueIdx.ix2 a b)
      = pairR (labelIs 1#32 lab) (labelIs 0#32 lab) (probs x) a b := by
  rw [Read.val_main_v32_apply, Read.val_main_v26_apply, Read.val_main_v25_apply, Read.val_main_v23_apply,
    Read.val_main_v21_apply, Read.val_main_v19_apply, Read.val_main_v22_apply, Read.val_main_v20_apply,
    Read.val_main_v24_apply, Read.val_main_cst_3_apply, Read.val_main_call0_v0_apply, Read.val_main_call0_cst_apply,
    Read.val_main_v31_apply, Read.val_main_v29_apply, Read.val_main_v27_apply, Read.val_main_v15_apply,
    Read.val_main_v14_apply, Read.val_main_v13_apply, Read.val_main_c_apply,
    Read.val_main_v30_apply, Read.val_main_v28_apply, Read.val_main_v18_apply, Read.val_main_v17_apply,
    Read.val_main_v16_apply, Read.val_main_c_2_apply,
    idx_v19_v21, idx_v20_v22, idx_v27_v29, idx_v28_v30]
  rfl

/-- A rank-1 index set of extent 16384 is its coordinate's range … -/
def idxEquiv1 : (⟨1, ![16384]⟩ : Shape).Idx ≃ Fin 16384 where
  toFun j := j 0
  invFun a := ValueIdx.ix1 a
  left_inv j := (ValueIdx.eq_ix1 j).symm
  right_inv _ := rfl

/-- … so a sum over it is the sum over the coordinate. -/
theorem sum_idx1 (f : (⟨1, ![16384]⟩ : Shape).Idx → EReal) :
    ∑ j, f j = ∑ a : Fin 16384, f (ValueIdx.ix1 a) := by
  rw [← Equiv.sum_comp idxEquiv1.symm f]
  rfl

/-- One element of the positives' weight vector is the indicator of the test "the label is 1". -/
theorem ref_weight (lab : (⟨1, ![16384]⟩ : Shape).Idx → BitVec 32) (a : Fin 16384) :
    Read.val_main_v15 (F := Ideal) lab (ValueIdx.ix1 a) = ((((labelIs 1#32 lab a).toNat : ℝ)) : EReal) := by
  rw [Read.val_main_v15_apply, Read.val_main_v14_apply, Read.val_main_v13_apply, Read.val_main_c_apply]
  rfl

/-- The reference's numerator: the pairs' sum, rows outside and columns inside, summed from zero. -/
theorem ref_num (x : (⟨2, ![16384, 2]⟩ : Shape).Idx → EReal) (lab : (⟨1, ![16384]⟩ : Shape).Idx → BitVec 32)
    (i : (⟨0, ![]⟩ : Shape).Idx) :
    Read.val_main_v33 (F := Ideal) x lab i
      = zero + ∑ a : Fin 16384, ∑ b : Fin 16384, pairR (labelIs 1#32 lab) (labelIs 0#32 lab) (probs x) a b := by
  rw [Read.val_main_v33_apply, Read.val_main_cst_4_apply, ValueIdx.sum_idx2]
  simp only [ref_pair]
  rfl

/-- The reference's denominator: the count of positives, summed from zero and clamped to at least one. -/
theorem ref_den (lab : (⟨1, ![16384]⟩ : Shape).Idx → BitVec 32) (i : (⟨0, ![]⟩ : Shape).Idx) :
    Read.val_main_v35 (F := Ideal) lab i
      = max (zero + ∑ a : Fin 16384, ((((labelIs 1#32 lab a).toNat : ℝ)) : EReal)) one := by
  rw [Read.val_main_v35_apply, Read.val_main_v34_apply, Read.val_main_cst_5_apply, Read.val_main_cst_6_apply,
    sum_idx1]
  simp only [ref_weight]
  rfl

/-- The reference's result, read at its one index, is the loss of the pairs' sum. -/
theorem ref_value (x : (⟨2, ![16384, 2]⟩ : Shape).Idx → EReal) (lab : (⟨1, ![16384]⟩ : Shape).Idx → BitVec 32)
    (i : (⟨0, ![]⟩ : Shape).Idx) :
    Cert.ReferenceIdeal.Read.val_main_v36 (F := Ideal) x lab i
      = loss (∑ a : Fin 16384, ∑ b : Fin 16384, pairR (labelIs 1#32 lab) (labelIs 0#32 lab) (probs x) a b)
          (labelIs 1#32 lab) := by
  rw [Read.val_main_v36_apply, Ideal.hostDivf_def, ref_num, ref_den]
  rfl

end Cert.PairSum

end
-- ==== Proof.lean ====
/-
  The certificate: a pairwise ranking loss computed tile by tile against its plain reference.

  Both programs start from the same probabilities p (the second component of a row-wise softmax of the predictions) and
  the same integer labels.  The reference sums `max ((p j - p i) + δ) 0 · [label i = 1] · [label j = 0]` over all pairs
  and divides by the count of positives clamped to at least one.  The kernel folds the two indicator weights and δ into
  two masked vectors (a positive keeps `p i`, every other row gets 10⁶; a negative keeps `p j + δ`, every other column
  gets -10⁶), sums `max (neg j - pos i) 0` over 8 × 16 tiles with an accumulator per row block, adds the eight partial
  sums on the host and divides by the same count.  Over the extended reals the two agree: the tiles partition the pairs
  and a sum may be taken in any order; on an unmasked pair the two differences are one number; on a masked pair the
  kernel's difference is below zero, so its maximum with zero is the zero the reference's weight gives — this step uses
  that every `p i` is a real number in [0, 1], which holds because the predictions are finite.  The idealization rewrote
  nothing, and the three frames are the generated runs.
-/
import proofs.«117087_j80530636800492_2_alg».proof.Defs
import proofs.«117087_j80530636800492_2_alg».proof.Proof.Gen.Kernel
import proofs.«117087_j80530636800492_2_alg».proof.Proof.Gen.Kernel.Frame
import proofs.«117087_j80530636800492_2_alg».proof.Proof.Gen.KernelIdeal
import proofs.«117087_j80530636800492_2_alg».proof.Proof.Gen.KernelIdeal.Frame
import proofs.«117087_j80530636800492_2_alg».proof.Proof.Gen.ReferenceIdeal
import proofs.«117087_j80530636800492_2_alg».proof.Proof.Gen.ReferenceIdeal.Run
import proofs.«117087_j80530636800492_2_alg».proof.Proof.Gen.ReferenceIdeal.Read
import proofs.«117087_j80530636800492_2_alg».proof.Proof.Gen.Pre_finite_inputs
import proofs.«117087_j80530636800492_2_alg».proof.Proof.KValue
import proofs.«117087_j80530636800492_2_alg».proof.Proof.RefValue
import Idealize.ShloMosaic.Adequacy
import Idealize.ShloMosaic.Init

noncomputable section

namespace Cert.Proof

open Idealize.ShloMosaic Idealize.ShloMosaic.TcCoe Idealize.SL.Sem Cert.PairSum

/-- The loss both programs end at, from the arguments' launch contents. -/
def lossOf (x : (⟨2, ![16384, 2]⟩ : Shape).Idx → EReal) (lab : (⟨1, ![16384]⟩ : Shape).Idx → BitVec 32) : EReal :=
  loss (∑ a : Fin 16384, ∑ b : Fin 16384, pairR (labelIs 1#32 lab) (labelIs 0#32 lab) (probs x) a b) (labelIs 1#32 lab)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Kernel

open Cert.KernelIdeal Cert.KernelIdeal.Gen

/-- The kernel program's run with its result named: under the precondition the result buffer ends at the loss. -/
theorem kernel_run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v32)
          = (fun _ => lossOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v32 (Pipeline.mem_restRefs_of main_v32 (by decide) (by decide))).trans
        (funext fun i => Cert.KernelIdeal.Region.kernel_value m c (allReal_of_pre _ _ (hpre c)) i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Kernel

/-- At the ideal reading both programs, run from memories that agree on the arguments, end at the same loss. -/
theorem algebraic : Cert.algebraic_KernelIdeal_ReferenceIdeal := by
  intro m ρ m' ρ' hpre hagree
  refine ⟨fun c => fun _ => lossOf (m ((c.tc : Thread _ Cert.KernelIdeal.τ).loc Cert.KernelIdeal.main_arg0))
      (m ((c.tc : Thread _ Cert.KernelIdeal.τ).loc Cert.KernelIdeal.main_arg1)), kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v36_eq]
  exact funext fun i => ref_value _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
